-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x58 : Shape := ⟨2, ![100000, 58]⟩
abbrev S2x3200000 : Shape := ⟨2, ![2, 3200000]⟩
abbrev S16x58 : Shape := ⟨2, ![16, 58]⟩
abbrev S16 : Shape := ⟨1, ![16]⟩
abbrev S1x16 : Shape := ⟨2, ![1, 16]⟩
abbrev S1 : Shape := ⟨1, ![1]⟩
abbrev S_ : Shape := ⟨0, ![]⟩

class Facts : Prop where
  bcast_S_S100000x58 : S_.BroadcastsInDim S100000x58 (![] : Fin 0 → Fin S100000x58.rank)
  reducesTo_S100000x58_S_d0_1 : S100000x58.ReducesTo [0, 1] S_
  h_S_ : 0 < S_.numel
  bcast_S_S16x58 : S_.BroadcastsInDim S16x58 (![] : Fin 0 → Fin S16x58.rank)
  reducesTo_S16x58_S_d0_1 : S16x58.ReducesTo [0, 1] S_
  bcast_S_S16 : S_.BroadcastsInDim S16 (![] : Fin 0 → Fin S16.rank)
  reducesTo_S16_S_d0 : S16.ReducesTo [0] S_
  bcast_S_S1x16 : S_.BroadcastsInDim S1x16 (![] : Fin 0 → Fin S1x16.rank)
  reducesTo_S1x16_S_d0_1 : S1x16.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S1x16 1) : IVec S_ 1 :=
  let main_c_5 : IVec S_ 1 := constantI S_ 1 1#1
  let main_v17 : IVec S_ 1 := (fun x v => Host.reduce IntOp.andi x v reducesTo_S1x16_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x58 .f32) (main_arg1 : IVec S2x3200000 32) (main_arg2 : FVec F S16x58 .f32) (main_arg3 : FVec F S16 .f32) (main_arg4 : FVec F S1x16 .f32) (main_arg5 : FVec F S1 .f32) : IVec S_ 1 :=
  let main_v0 : FVec F S100000x58 .f32 := Host.absf main_arg0
  let main_cst : FVec F S_ .f32 := constant S_ .f32 0x7F800000#32
  let main_v1 : FVec F S100000x58 .f32 := broadcastInDim S100000x58 ![] bcast_S_S100000x58 main_cst
  let main_v2 : IVec S100000x58 1 := cmpf .olt main_v0 main_v1
  let main_c : IVec S_ 1 := constantI S_ 1 1#1
  let main_v3 : IVec S_ 1 := (fun x v => Host.reduce IntOp.andi x v reducesTo_S100000x58_S_d0_1 h_S_) main_v2 main_c
  let main_v4 : FVec F S16x58 .f32 := Host.absf main_arg2
  let main_cst_0 : FVec F S_ .f32 := constant S_ .f32 0x7F800000#32
  let main_v5 : FVec F S16x58 .f32 := broadcastInDim S16x58 ![] bcast_S_S16x58 main_cst_0
  let main_v6 : IVec S16x58 1 := cmpf .olt main_v4 main_v5
  let main_c_1 : IVec S_ 1 := constantI S_ 1 1#1
  let main_v7 : IVec S_ 1 := (fun x v => Host.reduce IntOp.andi x v reducesTo_S16x58_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S1x16 .f32 := Host.absf main_arg4
  let main_cst_4 : FVec F S_ .f32 := constant S_ .f32 0x7F800000#32
  let main_v15 : FVec F S1x16 .f32 := broadcastInDim S1x16 ![] bcast_S_S1x16 main_cst_4
  let main_v16 : IVec S1x16 1 := cmpf .olt main_v14 main_v15
  fn_part1 (F := F) main_arg5 main_v13 main_v16
-- ==== Kernel.lean ====
abbrev S100000x58 : Shape := ⟨2, ![100000, 58]⟩
abbrev S2x3200000 : Shape := ⟨2, ![2, 3200000]⟩
abbrev S16x58 : Shape := ⟨2, ![16, 58]⟩
abbrev S16 : Shape := ⟨1, ![16]⟩
abbrev S1x16 : Shape := ⟨2, ![1, 16]⟩
abbrev S1 : Shape := ⟨1, ![1]⟩
abbrev S100000x16 : Shape := ⟨2, ![100000, 16]⟩
abbrev S10000x58 : Shape := ⟨2, ![10000, 58]⟩
abbrev S10000x16 : Shape := ⟨2, ![10000, 16]⟩
abbrev S58x16 : Shape := ⟨2, ![58, 16]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x16 : Shape := ⟨2, ![3200000, 16]⟩
abbrev S100000 : Shape := ⟨1, ![100000]⟩
abbrev S100000x1 : Shape := ⟨2, ![100000, 1]⟩
abbrev S1x1 : Shape := ⟨2, ![1, 1]⟩
abbrev S2000x16 : Shape := ⟨2, ![2000, 16]⟩
abbrev S2000x1 : Shape := ⟨2, ![2000, 1]⟩
abbrev S2000 : Shape := ⟨1, ![2000]⟩

abbrev nBuf : Space → Nat
  | .hbm => 34
  | .vmem => 14
  | .smem => 0
  | _ => 0

abbrev bufTy : (tb : Table) → Fin (tcTables nBuf tb) → BufTy
  | .hbm, ⟨0, _⟩ => ⟨S100000x58, .f32⟩
  | .hbm, ⟨1, _⟩ => ⟨S2x3200000, .i32⟩
  | .hbm, ⟨2, _⟩ => ⟨S16x58, .f32⟩
  | .hbm, ⟨3, _⟩ => ⟨S16, .f32⟩
  | .hbm, ⟨4, _⟩ => ⟨S1x16, .f32⟩
  | .hbm, ⟨5, _⟩ => ⟨S1, .f32⟩
  | .hbm, ⟨6, _⟩ => ⟨S100000x16, .f32⟩
  | .hbm, ⟨7, _⟩ => ⟨S1x3200000, .i32⟩
  | .hbm, ⟨8, _⟩ => ⟨S3200000, .i32⟩
  | .hbm, ⟨9, _⟩ => ⟨S1x3200000, .i32⟩
  | .hbm, ⟨10, _⟩ => ⟨S3200000, .i32⟩
  | .hbm, ⟨11, _⟩ => ⟨S_, .i32⟩
  | .hbm, ⟨12, _⟩ => ⟨S3200000, .i32⟩
  | .hbm, ⟨13, _⟩ => ⟨S3200000, .i1⟩
  | .hbm, ⟨14, _⟩ => ⟨S_, .i32⟩
  | .hbm, ⟨15, _⟩ => ⟨S3200000, .i32⟩
  | .hbm, ⟨16, _⟩ => ⟨S3200000, .i32⟩
  | .hbm, ⟨17, _⟩ => ⟨S3200000, .i32⟩
  | .hbm, ⟨18, _⟩ => ⟨S3200000x1, .i32⟩
  | .hbm, ⟨19, _⟩ => ⟨S3200000x16, .f32⟩
  | .hbm, ⟨20, _⟩ => ⟨S_, .f32⟩
  | .hbm, ⟨21, _⟩ => ⟨S100000x16, .f32⟩
  | .hbm, ⟨22, _⟩ => ⟨S3200000x1, .i32⟩
  | .hbm, ⟨23, _⟩ => ⟨S100000x16, .f32⟩
  | .hbm, ⟨24, _⟩ => ⟨S_, .f32⟩
  | .hbm, ⟨25, _⟩ => ⟨S3200000, .f32⟩
  | .hbm, ⟨26, _⟩ => ⟨S_, .f32⟩
  | .hbm, ⟨27, _⟩ => ⟨S100000, .f32⟩
  | .hbm, ⟨28, _⟩ => ⟨S3200000x1, .i32⟩
  | .hbm, ⟨29, _⟩ => ⟨S100000, .f32⟩
  | .hbm, ⟨30, _⟩ => ⟨S100000x1, .f32⟩
  | .hbm, ⟨31, _⟩ => ⟨S1x16, .f32⟩
  | .hbm, ⟨32, _⟩ => ⟨S1x1, .f32⟩
  | .hbm, ⟨33, _⟩ => ⟨S100000x1, .f32⟩
  | .local _ .vmem, ⟨0, _⟩ => ⟨S10000x58, .f32⟩
  | .local _ .vmem, ⟨1, _⟩ => ⟨S10000x58, .f32⟩
  | .local _ .vmem, ⟨2, _⟩ => ⟨S16x58, .f32⟩
  | .local _ .vmem, ⟨3, _⟩ => ⟨S10000x16, .f32⟩
  | .local _ .vmem, ⟨4, _⟩ => ⟨S10000x16, .f32⟩
  | .local _ .vmem, ⟨5, _⟩ => ⟨S2000x16, .f32⟩
  | .local _ .vmem, ⟨6, _⟩ => ⟨S2000x16, .f32⟩
  | .local _ .vmem, ⟨7, _⟩ => ⟨S2000x1, .f32⟩
  | .local _ .vmem, ⟨8, _⟩ => ⟨S2000x1, .f32⟩
  | .local _ .vmem, ⟨9, _⟩ => ⟨S1x16, .f32⟩
  | .local _ .vmem, ⟨10, _⟩ => ⟨S1x16, .f32⟩
  | .local _ .vmem, ⟨11, _⟩ => ⟨S1x1, .f32⟩
  | .local _ .vmem, ⟨12, _⟩ => ⟨S2000x1, .f32⟩
  | .local _ .vmem, ⟨13, _⟩ => ⟨S2000x1, .f32⟩
  | _, _ => ⟨S100000x58, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x58 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x58 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S10000x58_S10000x58_0_0 : ∀ a, (![0, 0] : Fin 2 → Nat) a + S10000x58.size a ≤ S10000x58.size a
  h_S10000x58 : 0 < S10000x58.numel
  bitsLt_bf16_f32 : FTy.bits .bf16 < FTy.bits .f32
  inb_S16x58_S16x58_0_0 : ∀ a, (![0, 0] : Fin 2 → Nat) a + S16x58.size a ≤ S16x58.size a
  h_S16x58 : 0 < S16x58.numel
  transposes_S16x58_p1_0_S58x16 : S16x58.Transposes [1, 0] S58x16
  inb_S10000x16_S10000x16_0_0 : ∀ a, (![0, 0] : Fin 2 → Nat) a + S10000x16.size a ≤ S10000x16.size a
  h_S10000x16 : 0 < S10000x16.numel
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x16 : S_.BroadcastsInDim S100000x16 (![] : Fin 0 → Fin S100000x16.rank)
  bcast_S_S100000 : S_.BroadcastsInDim S100000 (![] : Fin 0 → Fin S100000.rank)
  bcast_S100000_S100000x1_0 : S100000.BroadcastsInDim S100000x1 (![0] : Fin 1 → Fin S100000x1.rank)
  shapeCasts_S16_S1x16 : S16.ShapeCasts S1x16
  shapeCasts_S1_S1x1 : S1.ShapeCasts S1x1
  inb_S2000x16_S2000x16_0_0 : ∀ a, (![0, 0] : Fin 2 → Nat) a + S2000x16.size a ≤ S2000x16.size a
  h_S2000x16 : 0 < S2000x16.numel
  shapeCasts_S2000x16_S2000x16 : S2000x16.ShapeCasts S2000x16
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x16 : S2000x1.Broadcasts S2000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  reduces_S2000x16_S2000 : S2000x16.Reduces [1] S2000
  shapeCasts_S2000_S2000x1 : S2000.ShapeCasts S2000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  dot_S10000x58_S58x16_S10000x16_1_0_0_1_n_n_wf : DotDims.WF S10000x58 S58x16 S10000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  scatter_S100000_S3200000x1_S3200000_n_0_0_1_wf : ScatterDims.WF S100000 S3200000x1 S3200000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x58.size a ≤ S100000x58.size a
  hwx0_0 : ∀ i : grid0.Coords, EltTy.bits .f32 = 32 ∨ (Rect.block (s := S100000x58) S10000x58.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x58.size a ≤ S16x58.size a
  hwx0_1 : ∀ i : grid0.Coords, EltTy.bits .f32 = 32 ∨ (Rect.block (s := S16x58) S16x58.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S100000x16.size a
  hwx0_2 : ∀ i : grid0.Coords, EltTy.bits .f32 = 32 ∨ (Rect.block (s := S100000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x16.size a ≤ S100000x16.size a
  hwx1_0 : ∀ i : grid1.Coords, EltTy.bits .f32 = 32 ∨ (Rect.block (s := S100000x16) S2000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x1.size a ≤ S100000x1.size a
  hwx1_5 : ∀ i : grid1.Coords, EltTy.bits .f32 = 32 ∨ (Rect.block (s := S100000x1) S2000x1.size (cc1_transform_5 i) (hinb1_5 i)).WholeWords (EltTy.packing .f32)

variable [Facts₀]

def dot_S10000x58_S58x16_S10000x16_1_0_0_1_n_n : DotDims S10000x58 S58x16 S10000x16 where
  lhsContracting := [1]
  rhsContracting := [0]
  lhsNonContracting := [0]
  rhsNonContracting := [1]
  lhsBatch := []
  rhsBatch := []
  wf := dot_S10000x58_S58x16_S10000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf

abbrev win0_0 : Pipeline.Window sig grid0 :=
  Pipeline.Window.ofSpec (Memref.whole main_arg0) S10000x58.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16x58.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v14) S2000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v22) S2000x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x58 : Shape := ⟨2, ![100000, 58]⟩
abbrev S2x3200000 : Shape := ⟨2, ![2, 3200000]⟩
abbrev S16x58 : Shape := ⟨2, ![16, 58]⟩
abbrev S16 : Shape := ⟨1, ![16]⟩
abbrev S1x16 : Shape := ⟨2, ![1, 16]⟩
abbrev S1 : Shape := ⟨1, ![1]⟩
abbrev S58x16 : Shape := ⟨2, ![58, 16]⟩
abbrev S100000x16 : Shape := ⟨2, ![100000, 16]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x16 : Shape := ⟨2, ![3200000, 16]⟩
abbrev S100000 : Shape := ⟨1, ![100000]⟩
abbrev S100000x1 : Shape := ⟨2, ![100000, 1]⟩
abbrev S16x1 : Shape := ⟨2, ![16, 1]⟩
abbrev S1x1 : Shape := ⟨2, ![1, 1]⟩

abbrev nBuf : Space → Nat
  | .hbm => 48
  | .vmem => 0
  | .smem => 0
  | _ => 0

abbrev bufTy : (tb : Table) → Fin (tcTables nBuf tb) → BufTy
  | .hbm, ⟨0, _⟩ => ⟨S100000x58, .f32⟩
  | .hbm, ⟨1, _⟩ => ⟨S2x3200000, .i32⟩
  | .hbm, ⟨2, _⟩ => ⟨S16x58, .f32⟩
  | .hbm, ⟨3, _⟩ => ⟨S16, .f32⟩
  | .hbm, ⟨4, _⟩ => ⟨S1x16, .f32⟩
  | .hbm, ⟨5, _⟩ => ⟨S1, .f32⟩
  | .hbm, ⟨6, _⟩ => ⟨S58x16, .f32⟩
  | .hbm, ⟨7, _⟩ => ⟨S100000x16, .f32⟩
  | .hbm, ⟨8, _⟩ => ⟨S1x3200000, .i32⟩
  | .hbm, ⟨9, _⟩ => ⟨S3200000, .i32⟩
  | .hbm, ⟨10, _⟩ => ⟨S1x3200000, .i32⟩
  | .hbm, ⟨11, _⟩ => ⟨S3200000, .i32⟩
  | .hbm, ⟨12, _⟩ => ⟨S_, .i32⟩
  | .hbm, ⟨13, _⟩ => ⟨S3200000, .i32⟩
  | .hbm, ⟨14, _⟩ => ⟨S3200000, .i1⟩
  | .hbm, ⟨15, _⟩ => ⟨S_, .i32⟩
  | .hbm, ⟨16, _⟩ => ⟨S3200000, .i32⟩
  | .hbm, ⟨17, _⟩ => ⟨S3200000, .i32⟩
  | .hbm, ⟨18, _⟩ => ⟨S3200000, .i32⟩
  | .hbm, ⟨19, _⟩ => ⟨S3200000x1, .i32⟩
  | .hbm, ⟨20, _⟩ => ⟨S3200000x16, .f32⟩
  | .hbm, ⟨21, _⟩ => ⟨S_, .f32⟩
  | .hbm, ⟨22, _⟩ => ⟨S100000x16, .f32⟩
  | .hbm, ⟨23, _⟩ => ⟨S3200000x1, .i32⟩
  | .hbm, ⟨24, _⟩ => ⟨S100000x16, .f32⟩
  | .hbm, ⟨25, _⟩ => ⟨S_, .f32⟩
  | .hbm, ⟨26, _⟩ => ⟨S3200000, .f32⟩
  | .hbm, ⟨27, _⟩ => ⟨S_, .f32⟩
  | .hbm, ⟨28, _⟩ => ⟨S100000, .f32⟩
  | .hbm, ⟨29, _⟩ => ⟨S3200000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x16, .f32⟩
  | .hbm, ⟨36, _⟩ => ⟨S100000x16, .f32⟩
  | .hbm, ⟨37, _⟩ => ⟨S1x16, .f32⟩
  | .hbm, ⟨38, _⟩ => ⟨S100000x16, .f32⟩
  | .hbm, ⟨39, _⟩ => ⟨S100000x16, .f32⟩
  | .hbm, ⟨40, _⟩ => ⟨S_, .f32⟩
  | .hbm, ⟨41, _⟩ => ⟨S100000x16, .f32⟩
  | .hbm, ⟨42, _⟩ => ⟨S100000x16, .f32⟩
  | .hbm, ⟨43, _⟩ => ⟨S16x1, .f32⟩
  | .hbm, ⟨44, _⟩ => ⟨S100000x1, .f32⟩
  | .hbm, ⟨45, _⟩ => ⟨S1x1, .f32⟩
  | .hbm, ⟨46, _⟩ => ⟨S100000x1, .f32⟩
  | .hbm, ⟨47, _⟩ => ⟨S100000x1, .f32⟩
  | _, _ => ⟨S100000x58, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_call0_cst : Ref sig .tc := ⟨.hbm, 40, rfl⟩
abbrev main_call0_v0 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]

class Facts₀ : Prop where
  transposes_S16x58_S58x16_1_0 : S16x58.Transposes [1, 0] S58x16
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x16 : S_.BroadcastsInDim S100000x16 (![] : Fin 0 → Fin S100000x16.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  transposes_S1x16_S16x1_1_0 : S1x16.Transposes [1, 0] S16x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S100000x58_S58x16_S100000x16_1_0_0_1_n_n_wf : DotDims.WF S100000x58 S58x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  scatter_S100000_S3200000x1_S3200000_n_0_0_1_wf : ScatterDims.WF S100000 S3200000x1 S3200000 [] [0] [0] 1
  dot_S100000x16_S16x1_S100000x1_1_0_0_1_n_n_wf : DotDims.WF S100000x16 S16x1 S100000x1 [1] [0] [0] [1] [] []

variable [Facts₀]

def dot_S100000x58_S58x16_S100000x16_1_0_0_1_n_n : DotDims S100000x58 S58x16 S100000x16 where
  lhsContracting := [1]
  rhsContracting := [0]
  lhsNonContracting := [0]
  rhsNonContracting := [1]
  lhsBatch := []
  rhsBatch := []
  wf := dot_S100000x58_S58x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x16_S16x1_S100000x1_1_0_0_1_n_n : DotDims S100000x16 S16x1 S100000x1 where
  lhsContracting := [1]
  rhsContracting := [0]
  lhsNonContracting := [0]
  rhsNonContracting := [1]
  lhsBatch := []
  rhsBatch := []
  wf := dot_S100000x16_S16x1_S100000x1_1_0_0_1_n_n_wf

class Facts : Prop extends Facts₀ where

variable [Facts]
-- ==== Proof.KernelRun.lean ====
/-
  The idealized kernel's run with its result array named.

  @main is three segments: the first pallas region (a row-blocked product x · W1ᵀ), a stretch of host operations (the
  edge-wise gather and the two scatter-adds), and the second pallas region (normalise, bias, relu, contract with W2).
  The segments' run ends with every unscoped buffer at the contents of the last segment boundary; read at the result
  buffer this names the result array, and read at the argument buffers it gives the arguments back unchanged.
-/
import proofs.«161646_j14491219656875_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last boundary's
    contents, and every argument array ends as launched. -/
theorem run : θ_run defs (onTc (τ := τ) (main (F := F))) ⟨m, fun _ => 0, ρ⟩ (fun r => ∀ c : Dev nD,
      r.2.mem ((c.tc : Thread nD τ).loc main_v22) = W3 m ρ c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v22 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

/-- The result buffer at the last boundary is what the second region's write-backs leave of its output array. -/
theorem W3_result (c : Dev nD) :
    W3 m ρ c (Proc.devRef .tc main_v22) = (dat1 (V2 m ρ) c).arrAt 5 cfg1.N :=
  W3_arr m ρ c 5

/-- The first region's output array, as the host stretch finds it, is what that region's write-backs leave. -/
theorem W1_linear (c : Dev nD) :
    W1 m ρ c (Proc.devRef .tc main_v0) = (dat0 (V0 m ρ) c).arrAt 2 cfg0.N :=
  W1_arr m ρ c 2

end Cert.KernelIdeal.Named

end
-- ==== Proof.Linear1Pay.lean ====
/-
  The first region's body at one entry.

  A block of 10000 rows of x (58 columns) meets the whole weight matrix W1 (16 × 58). The body narrows both to bf16,
  which on the extended reals changes nothing, transposes W1 and multiplies into a zero accumulator. So entry (p, q) of
  the block's result is the inner product of row p of the block with row q of W1: Σ_k x[p,k] · W1[q,k].
-/
import proofs.«161646_j14491219656875_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Linear1

open Cert.KernelIdeal Cert.KernelIdeal.Gen Idealize.ShloMosaic Idealize.ShloMosaic.ValueIdx

/-- The product's left operand index at output (i, ·): its row is the output's row … -/
theorem lhs_row (i : S10000x16.Idx) (q : dot_S10000x58_S58x16_S10000x16_1_0_0_1_n_n.contr.Idx) :
    (dot_S10000x58_S58x16_S10000x16_1_0_0_1_n_n.lhsIdx i q 0).val = (i 0).val := by
  unfold DotDims.lhsIdx
  rw [dif_neg (show ¬(0 : Fin S10000x58.rank) ∈ dot_S10000x58_S58x16_S10000x16_1_0_0_1_n_n.lhsBatch by decide), dif_pos (show (0 : Fin S10000x58.rank) ∈ dot_S10000x58_S58x16_S10000x16_1_0_0_1_n_n.lhsNonContracting by decide)]
  rfl
/-- … and its column is the contracted coordinate. -/
theorem lhs_col (i : S10000x16.Idx) (q : dot_S10000x58_S58x16_S10000x16_1_0_0_1_n_n.contr.Idx) :
    (dot_S10000x58_S58x16_S10000x16_1_0_0_1_n_n.lhsIdx i q 1).val = (q ⟨0, by decide⟩).val :=
  dot_S10000x58_S58x16_S10000x16_1_0_0_1_n_n.lhsIdx_val_of_single rfl i q
/-- The right operand index: its row is the contracted coordinate … -/
theorem rhs_row (i : S10000x16.Idx) (q : dot_S10000x58_S58x16_S10000x16_1_0_0_1_n_n.contr.Idx) :
    (dot_S10000x58_S58x16_S10000x16_1_0_0_1_n_n.rhsIdx i q 0).val = (q ⟨0, by decide⟩).val :=
  dot_S10000x58_S58x16_S10000x16_1_0_0_1_n_n.rhsIdx_val_of_single rfl i q
/-- … and its column is the output's column. -/
theorem rhs_col (i : S10000x16.Idx) (q : dot_S10000x58_S58x16_S10000x16_1_0_0_1_n_n.contr.Idx) :
    (dot_S10000x58_S58x16_S10000x16_1_0_0_1_n_n.rhsIdx i q 1).val = (i 1).val := by
  unfold DotDims.rhsIdx
  rw [dif_neg (show ¬(1 : Fin S58x16.rank) ∈ dot_S10000x58_S58x16_S10000x16_1_0_0_1_n_n.rhsBatch by decide), dif_pos (show (1 : Fin S58x16.rank) ∈ dot_S10000x58_S58x16_S10000x16_1_0_0_1_n_n.rhsNonContracting by decide)]
  rfl

/-- Entry (p, q) of the body's result: the inner product of row p of the x block with row q of W1. -/
theorem pay_apply (x0 : Vec Ideal S10000x58 .f32) (x1 : Vec Ideal S16x58 .f32) (p : Fin 10000) (q : Fin 16) :
    k0_pay1 x0 x1 (ix2 p q) = ∑ k : Fin 58, x0 (ix2 p k) * x1 (ix2 q k) := by
  unfold k0_pay1
  refine (Ideal.matmul_constant_zero_apply dot_S10000x58_S58x16_S10000x16_1_0_0_1_n_n none _ _ (ix2 p q)).trans ?_
  rw [← Equiv.sum_comp (contrEquiv1 dot_S10000x58_S58x16_S10000x16_1_0_0_1_n_n 58 rfl rfl).symm]
  refine Finset.sum_congr rfl fun k _ => ?_
  have hk := contrEquiv1_symm_val dot_S10000x58_S58x16_S10000x16_1_0_0_1_n_n 58 rfl rfl k
  have el : dot_S10000x58_S58x16_S10000x16_1_0_0_1_n_n.lhsIdx (ix2 p q) ((contrEquiv1 dot_S10000x58_S58x16_S10000x16_1_0_0_1_n_n 58 rfl rfl).symm k) = ix2 p k := funext fun a => Fin.ext (by
    match a with
    | ⟨0, _⟩ => exact lhs_row _ _
    | ⟨1, _⟩ => exact (lhs_col _ _).trans hk)
  have er : dot_S10000x58_S58x16_S10000x16_1_0_0_1_n_n.rhsIdx (ix2 p q) ((contrEquiv1 dot_S10000x58_S58x16_S10000x16_1_0_0_1_n_n 58 rfl rfl).symm k) = ix2 k q := funext fun a => Fin.ext (by
    match a with
    | ⟨0, _⟩ => exact (rhs_row _ _).trans hk
    | ⟨1, _⟩ => exact rhs_col _ _)
  rw [el, er]
  refine congrArg (x0 (ix2 p k) * ·) ?_
  exact transpose_ix2_apply (a := 16) (b := 58) _ transposes_S16x58_p1_0_S58x16 k q

end Cert.KernelIdeal.Linear1

end
-- ==== Proof.Linear1Array.lean ====
/-
  The first region's output array after its run: one function of the arrays the region was entered with.

  The grid has 10 points. Point t stages rows [10000·t, 10000·t + 10000) of x and the whole of W1, and writes back the
  same rows of the output (16 columns). Since entry (p, q) of the body's result is the inner product of row p of the
  staged x block with row q of W1, point t writes back exactly block t of
      lin x W1 : (n, j) ↦ Σ_k x[n,k] · W1[j,k],
  and the 10 blocks tile all 100000 rows (row n belongs to point n / 10000). So the array ends holding lin x W1.
-/
import proofs.«161646_j14491219656875_2_alg».proof.Proof.Gen.KernelIdeal.Frame
import proofs.«161646_j14491219656875_2_alg».proof.Proof.Linear1Pay

noncomputable section

namespace Cert.KernelIdeal.Linear1

open Cert.KernelIdeal Cert.KernelIdeal.Gen Idealize.ShloMosaic Idealize.ShloMosaic.TcCoe Idealize.SL.Sem Idealize.ShloMosaic.ValueIdx
open Idealize.ShloMosaic.Pipeline (Dat)

/-- The first linear layer on whole arrays: (n, j) ↦ Σ_k x[n,k] · W1[j,k]. -/
def lin (x : S100000x58.Idx → EReal) (w : S16x58.Idx → EReal) : S100000x16.Idx → EReal :=
  fun i => ∑ k : Fin 58, x (ix2 (n0 := 100000) (i 0) k) * w (ix2 (n0 := 16) (i 1) k)

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the grid: x's row block moves with the output's, every other block index is 0, and the output's
    row block stays below 10. -/
theorem index_maps : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every row block is some point's. -/
theorem row_block_onto : ∀ (q0 : Fin 10), ∃ t : Fin cfg0.N, win0_2.index t = ![q0.val, 0] :=
  (by decide +kernel : ∀ (q0 : Fin 10), ∃ t : Fin grid0.N, win0_2.index t = ![q0.val, 0])

/-- What point t writes back is block t of lin of the entry arrays. -/
theorem flushed_eq (c : Dev nD) (t : Fin cfg0.N) :
    (dat0 V c).flushed 2 t = ((cfg0.win 2).blk t).view.read (Elt Ideal) (lin (V c main_arg0) (V c main_arg2)) := by
  show (cfg0.win 2).cut (grid0.coords t) ((dat0 V c).after 2 t) = _
  rw [after0_2]
  unfold out0_2
  rw [View.canon_unit_zero zero_offsets]
  simp only [View.ld_unit_zero (S := S10000x58) zero_offsets, View.ld_unit_zero (S := S16x58) zero_offsets]
  obtain ⟨e0, e1, e2, e3, e4, e5⟩ := index_maps t
  funext j
  obtain ⟨p, q, rfl⟩ : ∃ (p : Fin 10000) (q : Fin 16), j = ix2 p q := ⟨j 0, j 1, eq_ix2 j⟩
  show k0_pay1 (iblk0 V c 0 t) (iblk0 V c 1 t) (ix2 p q) = lin (V c main_arg0) (V c main_arg2) (((cfg0.win 2).blk t).view.emb (ix2 p q))
  refine (pay_apply (iblk0 V c 0 t) (iblk0 V c 1 t) p q).trans ?_
  unfold lin
  refine Finset.sum_congr rfl fun k _ => ?_
  refine congrArg₂ (· * ·) ?_ ?_
  · show V c main_arg0 (((cfg0.win 0).blk t).view.emb (ix2 p k)) = V c main_arg0 _
    refine congrArg (V c main_arg0) (funext fun a => Fin.ext ?_)
    match a with
    | ⟨0, _⟩ => show win0_0.index t (0 : Fin 2) * 10000 + 1 * p.val = win0_2.index t (0 : Fin 2) * 10000 + 1 * p.val; omega
    | ⟨1, _⟩ => show win0_0.index t (1 : Fin 2) * 58 + 1 * k.val = k.val; omega
  · show V c main_arg2 (((cfg0.win 1).blk t).view.emb (ix2 q k)) = V c main_arg2 _
    refine congrArg (V c main_arg2) (funext fun a => Fin.ext ?_)
    match a with
    | ⟨0, _⟩ => show win0_1.index t (0 : Fin 2) * 16 + 1 * q.val = win0_2.index t (1 : Fin 2) * 16 + 1 * q.val; omega
    | ⟨1, _⟩ => show win0_1.index t (1 : Fin 2) * 58 + 1 * k.val = k.val; omega

/-- An index of the output array is in point t's block iff each coordinate is in the block's range on its axis. -/
theorem mem_blk (t : Fin cfg0.N) (i : S100000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole main_v0).slice (win0_2.rect t)).set ↔ _
  rw [View.set_slice_whole, Rect.mem_set_unit]
  exact Iff.rfl

/-- Every index of the output array is in the block of the point its row belongs to. -/
theorem cover (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, ht⟩ := row_block_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 16 ≤ (i 1).val ∧ (i 1).val < win0_2.index t (1 : Fin 2) * 16 + 16; omega

/-- The output array after the region's run is lin of the arrays the region was entered with. -/
theorem final (c : Dev nD) : (dat0 V c).arrAt 2 cfg0.N = lin (V c main_arg0) (V c main_arg2) :=
  (dat0 V c).arrAt_eq_of_cover 2 (lin (V c main_arg0) (V c main_arg2)) (fun t _ => flushed_eq V c t) cover

end Cert.KernelIdeal.Linear1

end
-- ==== Proof.Stage2Pay.lean ====
/-
  The second region's body at one entry.

  A block holds 2000 rows: the scatter-added features s (16 per row) and the in-degree c (one per row); the bias b1
  and the weights w2 are rows of 16, the bias b2 a single number. The body forms, per row p and feature j,
      a[p,j] = max( s[p,j] / max(c[p], 1) + b1[j], 0 ),
  multiplies by w2[j], sums the 16 lanes from a zero accumulator and adds b2. So entry (p, 0) of its result is
      Σ_j a[p,j] · w2[j]  +  b2.
-/
import proofs.«161646_j14491219656875_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Stage2

open Cert.KernelIdeal Cert.KernelIdeal.Gen Idealize.ShloMosaic Idealize.ShloMosaic.ValueIdx

variable {α : Type}

/-- The mean-normalised, biased, rectified feature: max(s / max(c, 1) + b, 0) on the extended reals. -/
def act (s c b : EReal) : EReal :=
  max (Ideal.div s (max c (Ideal.ofBits .f32 0x3F800000#32)) + b) (Ideal.ofBits .f32 0x00000000#32)

/-- A vector of length a viewed as a column [a, 1] reads, at (p, ·), the vector at p. -/
theorem shapeCast_a_a1_apply {a : ℕ} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    omega)

/-- A column [a, 1] broadcast along the lanes to [a, b] reads, at (p, q), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- Summing the lanes of row p: the source index over the reduced index p with lane k put back is (p, k). -/
theorem lift_row (h : S2000x16.Reduces [1] S2000) (p : Fin 2000) (k : Fin 16) : h.lift (ix1 p) k = ix2 p k := by
  funext c
  apply Fin.ext
  show h.liftVal (ix1 p) k.val c = _
  match c with
  | ⟨0, _⟩ => simp [Shape.Reduces.liftVal]
  | ⟨1, _⟩ => simp [Shape.Reduces.liftVal]

/-- Entry (p, 0) of the body's result: Σ_j act(s[p,j], c[p], b1[j]) · w2[j] + b2. -/
theorem pay_apply (x0 : Vec Ideal S2000x16 .f32) (x1 : Vec Ideal S2000x1 .f32) (x2 x3 : Vec Ideal S1x16 .f32) (x4 : Vec Ideal S1x1 .f32)
    (p : Fin 2000) (z : Fin 1) :
    k1_pay1 x0 x1 x2 x3 x4 (ix2 p z)
      = (∑ j : Fin 16, act (x0 (ix2 p j)) (x1 (ix2 p (0 : Fin 1))) (x2 (ix2 (0 : Fin 1) j)) * x3 (ix2 (0 : Fin 1) j)) + x4 (ix2 (0 : Fin 1) (0 : Fin 1)) := by
  have hz : z = 0 := Subsingleton.elim _ _
  subst hz
  unfold k1_pay1
  simp only [shapeCast_self]
  refine congrArg₂ (· + ·) ?_ ?_
  · refine (shapeCast_a_a1_apply _ shapeCasts_S2000_S2000x1 p 0).trans ?_
    refine (Ideal.multiReduction_add_single _ 0x00000000#32 reduces_S2000x16_S2000 _ _ (ix1 p)).trans ?_
    refine Finset.sum_congr rfl fun (j : Fin 16) _ => ?_
    rw [lift_row reduces_S2000x16_S2000 p j]
    refine congrArg₂ (· * ·) ?_ (broadcastTo_1b_ab_apply x3 broadcasts_S1x16_S2000x16 p j)
    refine congrArg₂ (fun u v => max (Ideal.div (x0 (ix2 p j)) u + v) (Ideal.ofBits .f32 0x00000000#32)) ?_ (broadcastTo_1b_ab_apply x2 broadcasts_S1x16_S2000x16 p j)
    exact broadcastTo_a1_ab_apply _ broadcasts_S2000x1_S2000x16 p j
  · exact broadcastTo_1b_ab_apply x4 broadcasts_S1x1_S2000x1 p 0

end Cert.KernelIdeal.Stage2

end
-- ==== Proof.Stage2Array.lean ====
/-
  The second region's output array after its run: one function of the arrays the region was entered with.

  The grid has 50 points. Point t stages rows [2000·t, 2000·t + 2000) of the summed features s (16 columns) and of the
  in-degree column c, the whole bias row b1, weight row w2 and bias b2, and writes back the same rows of the output
  column. Entry (p, 0) of the body's result is Σ_j act(s[p,j], c[p], b1[j]) · w2[j] + b2 of the staged blocks, so point
  t writes back exactly block t of
      head s c b1 w2 b2 : (n, 0) ↦ Σ_j max(s[n,j] / max(c[n,0], 1) + b1[0,j], 0) · w2[0,j] + b2[0,0],
  and the 50 blocks tile all 100000 rows (row n belongs to point n / 2000). So the array ends holding that function.
-/
import proofs.«161646_j14491219656875_2_alg».proof.Proof.Gen.KernelIdeal.Frame
import proofs.«161646_j14491219656875_2_alg».proof.Proof.Stage2Pay

noncomputable section

namespace Cert.KernelIdeal.Stage2

open Cert.KernelIdeal Cert.KernelIdeal.Gen Idealize.ShloMosaic Idealize.ShloMosaic.TcCoe Idealize.SL.Sem Idealize.ShloMosaic.ValueIdx
open Idealize.ShloMosaic.Pipeline (Dat)

/-- The second stage on whole arrays, the in-degree a column, the biases as the region receives them:
    (n, 0) ↦ Σ_j act(s[n,j], c[n,0], b1[0,j]) · w2[0,j] + b2[0,0]. -/
def head (s : S100000x16.Idx → EReal) (c1 : S100000x1.Idx → EReal) (b1 : S1x16.Idx → EReal) (w2 : S1x16.Idx → EReal)
    (b2 : S1x1.Idx → EReal) : S100000x1.Idx → EReal :=
  fun i => (∑ j : Fin 16, act (s (ix2 (n0 := 100000) (i 0) j)) (c1 (ix2 (n0 := 100000) (i 0) (0 : Fin 1))) (b1 (ix2 (0 : Fin 1) j)) * w2 (ix2 (0 : Fin 1) j))
    + b2 (ix2 (0 : Fin 1) (0 : Fin 1))

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the grid: the row blocks of the sums and of the counts move with the output's, every other block
    index is 0, and the output's row block stays below 50. -/
theorem index_maps : ∀ t : Fin cfg1.N, win1_0.index t (0 : Fin 2) = win1_5.index t (0 : Fin 2)
    ∧ win1_0.index t (1 : Fin 2) = 0
    ∧ win1_1.index t (0 : Fin 2) = win1_5.index t (0 : Fin 2)
    ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0
    ∧ win1_5.index t (0 : Fin 2) ≤ 49 :=
  (by decide +kernel : ∀ t : Fin grid1.N, _)

/-- Every row block is some point's. -/
theorem row_block_onto : ∀ (q0 : Fin 50), ∃ t : Fin cfg1.N, win1_5.index t = ![q0.val, 0] :=
  (by decide +kernel : ∀ (q0 : Fin 50), ∃ t : Fin grid1.N, win1_5.index t = ![q0.val, 0])

/-- What point t writes back is block t of head of the entry arrays. -/
theorem flushed_eq (c : Dev nD) (t : Fin cfg1.N) :
    (dat1 V c).flushed 5 t = ((cfg1.win 5).blk t).view.read (Elt Ideal)
      (head (V c main_v14) (V c main_v19) (V c main_v20) (V c main_arg4) (V c main_v21)) := by
  show (cfg1.win 5).cut (grid1.coords t) ((dat1 V c).after 5 t) = _
  rw [after1_5]
  unfold out1_5
  rw [View.canon_unit_zero zero_offsets]
  simp only [View.ld_unit_zero (S := S2000x16) zero_offsets, View.ld_unit_zero (S := S2000x1) zero_offsets,
    View.ld_unit_zero (S := S1x16) zero_offsets, View.ld_unit_zero (S := S1x1) zero_offsets]
  obtain ⟨e0, e1, e2, e3, e4, e5, e6, e7, e8, e9, e10, e11⟩ := index_maps t
  funext j
  obtain ⟨p, z, rfl⟩ : ∃ (p : Fin 2000) (z : Fin 1), j = ix2 p z := ⟨j 0, j 1, eq_ix2 j⟩
  have hz : z = 0 := Subsingleton.elim _ _
  subst hz
  show k1_pay1 (iblk1 V c 0 t) (iblk1 V c 1 t) (iblk1 V c 2 t) (iblk1 V c 3 t) (iblk1 V c 4 t) (ix2 p (0 : Fin 1))
    = head (V c main_v14) (V c main_v19) (V c main_v20) (V c main_arg4) (V c main_v21) (((cfg1.win 5).blk t).view.emb (ix2 p (0 : Fin 1)))
  refine (pay_apply (iblk1 V c 0 t) (iblk1 V c 1 t) (iblk1 V c 2 t) (iblk1 V c 3 t) (iblk1 V c 4 t) p 0).trans ?_
  unfold head
  refine congrArg₂ (· + ·) (Finset.sum_congr rfl fun k _ => congrArg₂ (· * ·) (congr (congrArg₂ act ?_ ?_) ?_) ?_) ?_
  · show V c main_v14 (((cfg1.win 0).blk t).view.emb (ix2 p k)) = V c main_v14 _
    refine congrArg (V c main_v14) (funext fun a => Fin.ext ?_)
    match a with
    | ⟨0, _⟩ => show win1_0.index t (0 : Fin 2) * 2000 + 1 * p.val = win1_5.index t (0 : Fin 2) * 2000 + 1 * p.val; omega
    | ⟨1, _⟩ => show win1_0.index t (1 : Fin 2) * 16 + 1 * k.val = k.val; omega
  · show V c main_v19 (((cfg1.win 1).blk t).view.emb (ix2 p (0 : Fin 1))) = V c main_v19 _
    refine congrArg (V c main_v19) (funext fun a => Fin.ext ?_)
    match a with
    | ⟨0, _⟩ => show win1_1.index t (0 : Fin 2) * 2000 + 1 * p.val = win1_5.index t (0 : Fin 2) * 2000 + 1 * p.val; omega
    | ⟨1, _⟩ => show win1_1.index t (1 : Fin 2) * 1 + 1 * 0 = 0; omega
  · show V c main_v20 (((cfg1.win 2).blk t).view.emb (ix2 (0 : Fin 1) k)) = V c main_v20 _
    refine congrArg (V c main_v20) (funext fun a => Fin.ext ?_)
    match a with
    | ⟨0, _⟩ => show win1_2.index t (0 : Fin 2) * 1 + 1 * 0 = 0; omega
    | ⟨1, _⟩ => show win1_2.index t (1 : Fin 2) * 16 + 1 * k.val = k.val; omega
  · show V c main_arg4 (((cfg1.win 3).blk t).view.emb (ix2 (0 : Fin 1) k)) = V c main_arg4 _
    refine congrArg (V c main_arg4) (funext fun a => Fin.ext ?_)
    match a with
    | ⟨0, _⟩ => show win1_3.index t (0 : Fin 2) * 1 + 1 * 0 = 0; omega
    | ⟨1, _⟩ => show win1_3.index t (1 : Fin 2) * 16 + 1 * k.val = k.val; omega
  · show V c main_v21 (((cfg1.win 4).blk t).view.emb (ix2 (0 : Fin 1) (0 : Fin 1))) = V c main_v21 _
    refine congrArg (V c main_v21) (funext fun a => Fin.ext ?_)
    match a with
    | ⟨0, _⟩ => show win1_4.index t (0 : Fin 2) * 1 + 1 * 0 = 0; omega
    | ⟨1, _⟩ => show win1_4.index t (1 : Fin 2) * 1 + 1 * 0 = 0; omega

/-- An index of the output array is in point t's block iff each coordinate is in the block's range on its axis. -/
theorem mem_blk (t : Fin cfg1.N) (i : S100000x1.Idx) :
    i ∈ ((cfg1.win 5).blk t).view.set ↔ ∀ a : Fin 2, win1_5.index t a * S2000x1.size a ≤ (i a).val ∧ (i a).val < win1_5.index t a * S2000x1.size a + S2000x1.size a := by
  show i ∈ ((View.whole main_v22).slice (win1_5.rect t)).set ↔ _
  rw [View.set_slice_whole, Rect.mem_set_unit]
  exact Iff.rfl

/-- Every index of the output array is in the block of the point its row belongs to. -/
theorem cover (i : S100000x1.Idx) :
    ∃ t : Fin cfg1.N, (cfg1.win 5).flush t = true ∧ i ∈ ((cfg1.win 5).blk t).view.set := by
  have hi0 : (i 0).val < 100000 := (i 0).isLt
  have hi1 : (i 1).val < 1 := (i 1).isLt
  obtain ⟨t, ht⟩ := row_block_onto ⟨(i 0).val / 2000, by omega⟩
  have q0 : win1_5.index t (0 : Fin 2) = (i 0).val / 2000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 1 ≤ (i 1).val ∧ (i 1).val < win1_5.index t (1 : Fin 2) * 1 + 1; omega

/-- The output array after the region's run is head of the arrays the region was entered with. -/
theorem final (c : Dev nD) : (dat1 V c).arrAt 5 cfg1.N
    = head (V c main_v14) (V c main_v19) (V c main_v20) (V c main_arg4) (V c main_v21) :=
  (dat1 V c).arrAt_eq_of_cover 5 (head (V c main_v14) (V c main_v19) (V c main_v20) (V c main_arg4) (V c main_v21))
    (fun t _ => flushed_eq V c t) cover

end Cert.KernelIdeal.Stage2

end
-- ==== Proof.Aggregate.lean ====
/-
  The host operations between the two regions: the mean-aggregation's sums and counts.

  From the first layer's output h (one row of 16 features per node) and the edge list e (row 0: source node of each of
  the 3200000 edges, row 1: its destination) the stretch computes
      summed = scatter-add over edges of h[src] into row dst   (a zero array of 100000 × 16 to start from),
      count  = scatter-add over edges of 1 into entry dst      (a zero vector of 100000 to start from),
  where a negative source index is first wrapped by adding 100000. It also views the bias b1 as a row [1,16], the bias
  b2 as [1,1], and count as a column [100000,1]. The gather and the scatter-adds are kept as they are printed: both
  programs apply the same ones, so nothing here looks inside them.
-/
import proofs.«161646_j14491219656875_2_alg».proof.Proof.Gen.KernelIdeal.Launch
import Idealize.ShloMosaic.Lib.StableHlo.Run

noncomputable section

namespace Cert.KernelIdeal.Aggregate

open Cert.KernelIdeal Cert.KernelIdeal.Gen Idealize.ShloMosaic Idealize.ShloMosaic.TcCoe Idealize.SL.Sem Idealize.ShloMosaic.StableHlo

variable {F : FTy → Type} [FloatOps F]

/-- Row r of the edge list as a vector of 3200000 node indices. -/
def edgeRow0 (e : (⟨S2x3200000, .i32⟩ : BufTy).Contents (Elt F)) : (⟨S3200000, .i32⟩ : BufTy).Contents (Elt F) :=
  shapeCast _ (extractStridedSlice S1x3200000 ![0, 0] e slices_S2x3200000_S1x3200000_0_0) shapeCasts_S1x3200000_S3200000
def edgeRow1 (e : (⟨S2x3200000, .i32⟩ : BufTy).Contents (Elt F)) : (⟨S3200000, .i32⟩ : BufTy).Contents (Elt F) :=
  shapeCast _ (extractStridedSlice S1x3200000 ![1, 0] e slices_S2x3200000_S1x3200000_1_0) shapeCasts_S1x3200000_S3200000

/-- Each edge's source node, a negative index wrapped by adding 100000, as the gather's index column. -/
def srcIdx (e : (⟨S2x3200000, .i32⟩ : BufTy).Contents (Elt F)) : (⟨S3200000x1, .i32⟩ : BufTy).Contents (Elt F) :=
  broadcastInDim S3200000x1 ![0] bcast_S3200000_S3200000x1_0
    (select (cmpi .slt (edgeRow0 (F := F) e) (broadcastInDim S3200000 ![] bcast_S_S3200000 (constantI S_ 32 0#32)))
      (addi (edgeRow0 (F := F) e) (broadcastInDim S3200000 ![] bcast_S_S3200000 (constantI S_ 32 100000#32)))
      (edgeRow0 (F := F) e))

/-- Each edge's destination node, as the scatters' index column. -/
def dstIdx (e : (⟨S2x3200000, .i32⟩ : BufTy).Contents (Elt F)) : (⟨S3200000x1, .i32⟩ : BufTy).Contents (Elt F) :=
  broadcastInDim S3200000x1 ![0] bcast_S3200000_S3200000x1_0 (edgeRow1 (F := F) e)

/-- The features summed over incoming edges: row n is Σ over edges into n of h[source]. -/
def summed (h : (⟨S100000x16, .f32⟩ : BufTy).Contents (Elt F)) (e : (⟨S2x3200000, .i32⟩ : BufTy).Contents (Elt F)) :
    (⟨S100000x16, .f32⟩ : BufTy).Contents (Elt F) :=
  Host.scatterAdd scatter_S100000x16_S3200000x1_S3200000x16_1_0_0_1
    (broadcastInDim S100000x16 ![] bcast_S_S100000x16 (constant S_ .f32 0x00000000#32))
    (dstIdx (F := F) e)
    (Host.gather gather_S100000x16_S3200000x1_S3200000x16_1_0_n_n_0_1_116 h (srcIdx (F := F) e))

/-- The in-degree of every node: entry n is the number of edges into n. -/
def count (e : (⟨S2x3200000, .i32⟩ : BufTy).Contents (Elt F)) : (⟨S100000, .f32⟩ : BufTy).Contents (Elt F) :=
  Host.scatterAdd scatter_S100000_S3200000x1_S3200000_n_0_0_1
    (broadcastInDim S100000 ![] bcast_S_S100000 (constant S_ .f32 0x00000000#32))
    (dstIdx (F := F) e)
    (broadcastInDim S3200000 ![] bcast_S_S3200000 (constant S_ .f32 0x3F800000#32))

variable (U : Valuation τ sig (Elt F))

/-- After the stretch the summed-features buffer holds summed of the first layer's output and the edge list, -/
theorem after_summed :
    after hostOps1 U (Proc.devRef .tc main_v14) = summed (F := F) (U (Proc.devRef .tc main_v0)) (U (Proc.devRef .tc main_arg1)) := by
  after_results
  rfl

/-- the count buffer the in-degrees as a column, -/
theorem after_count :
    after hostOps1 U (Proc.devRef .tc main_v19)
      = broadcastInDim S100000x1 ![0] bcast_S100000_S100000x1_0 (count (F := F) (U (Proc.devRef .tc main_arg1))) := by
  after_results
  rfl

/-- the first bias its row view, -/
theorem after_bias1 :
    after hostOps1 U (Proc.devRef .tc main_v20) = shapeCast _ (U (Proc.devRef .tc main_arg3)) shapeCasts_S16_S1x16 := by
  after_results
  rfl

/-- the second bias its [1,1] view, -/
theorem after_bias2 :
    after hostOps1 U (Proc.devRef .tc main_v21) = shapeCast _ (U (Proc.devRef .tc main_arg5)) shapeCasts_S1_S1x1 := by
  after_results
  rfl

/-- and the second layer's weights are untouched. -/
theorem after_weights2 :
    after hostOps1 U (Proc.devRef .tc main_arg4) = U (Proc.devRef .tc main_arg4) := by
  after_results

end Cert.KernelIdeal.Aggregate

end
-- ==== Proof.OutSpec.lean ====
/-
  The network's last stage as one function of whole arrays, with the in-degree a plain vector and the biases as the
  caller passes them:
      out1 s cnt b1 w2 b2 : (n, 0) ↦ Σ_j max( s[n,j] / max(cnt[n], 1) + b1[j], 0 ) · w2[0,j]  +  b2[0].
  Both programs end at this function of the same sums s and in-degrees cnt.
-/
import proofs.«161646_j14491219656875_2_alg».proof.Proof.Stage2Pay

noncomputable section

namespace Cert.KernelIdeal.Stage2

open Cert.KernelIdeal Idealize.ShloMosaic Idealize.ShloMosaic.ValueIdx

/-- (n, 0) ↦ Σ_j act(s[n,j], cnt[n], b1[j]) · w2[0,j] + b2[0]. -/
def out1 (s : S100000x16.Idx → EReal) (cnt : S100000.Idx → EReal) (b1 : S16.Idx → EReal) (w2 : S1x16.Idx → EReal)
    (b2 : S1.Idx → EReal) : S100000x1.Idx → EReal :=
  fun i => (∑ j : Fin 16, act (s (ix2 (n0 := 100000) (i 0) j)) (cnt (ix1 (n := 100000) (i 0))) (b1 (ix1 j)) * w2 (ix2 (0 : Fin 1) j))
    + b2 (ix1 (0 : Fin 1))

end Cert.KernelIdeal.Stage2

end
-- ==== Proof.Bridge.lean ====
/-
  The idealized kernel's result as one function of its arguments.

  Read backwards from the end of the run: the result array is what the second region leaves, head of the arrays that
  region was entered with; those are what the host stretch leaves — the summed features and in-degree column of the
  first region's output and the edge list, and views of the biases —; and the first region's output is lin x W1. With
  the column and row views read at an index (a column [n,1] of a vector reads the vector at n; a row view [1,a] of a
  vector reads it at the lane), head becomes out1, so the result is
      value x e W1 b1 W2 b2 = out1 (summed (lin x W1) e) (count e) b1 W2 b2.
-/
import proofs.«161646_j14491219656875_2_alg».proof.Proof.KernelRun
import proofs.«161646_j14491219656875_2_alg».proof.Proof.Linear1Array
import proofs.«161646_j14491219656875_2_alg».proof.Proof.Stage2Array
import proofs.«161646_j14491219656875_2_alg».proof.Proof.Aggregate
import proofs.«161646_j14491219656875_2_alg».proof.Proof.OutSpec

set_option maxRecDepth 16384

noncomputable section

namespace Cert.KernelIdeal.Bridge

open Cert.KernelIdeal Cert.KernelIdeal.Gen Idealize.ShloMosaic Idealize.ShloMosaic.TcCoe Idealize.SL.Sem Idealize.ShloMosaic.ValueIdx

/-- The whole network on whole arrays. -/
def value (x : S100000x58.Idx → EReal) (e : (⟨S2x3200000, .i32⟩ : BufTy).Contents (Elt Ideal)) (w1 : S16x58.Idx → EReal)
    (b1 : S16.Idx → EReal) (w2 : S1x16.Idx → EReal) (b2 : S1.Idx → EReal) : S100000x1.Idx → EReal :=
  Stage2.out1 (Aggregate.summed (F := Ideal) (Linear1.lin x w1) e) (Aggregate.count (F := Ideal) e) b1 w2 b2

/-- head at the in-degree as a column and the biases as row views is out1 at the plain vectors. -/
theorem head_eq (s : S100000x16.Idx → EReal) (cnt : S100000.Idx → EReal) (b1 : S16.Idx → EReal) (w2 : S1x16.Idx → EReal)
    (b2 : S1.Idx → EReal) :
    Stage2.head s (broadcastInDim S100000x1 ![0] bcast_S100000_S100000x1_0 cnt) (shapeCast _ b1 shapeCasts_S16_S1x16) w2
        (shapeCast _ b2 shapeCasts_S1_S1x1)
      = Stage2.out1 s cnt b1 w2 b2 := by
  funext i
  unfold Stage2.head Stage2.out1
  refine congrArg₂ (· + ·) (Finset.sum_congr rfl fun j _ => congrArg₂ (· * ·) (congrArg₂ (Stage2.act _) ?_ ?_) rfl) ?_
  · exact broadcastInDim_apply _ bcast_S100000_S100000x1_0 cnt _ _ (fun a => match a with
      | ⟨0, _⟩ => by show (i 0).val = if (100000 : Nat) = 1 then 0 else (i 0).val; rw [if_neg (by decide)])
  · exact shapeCast_a_1a_apply b1 shapeCasts_S16_S1x16 0 j
  · exact shapeCast_a_1a_apply b2 shapeCasts_S1_S1x1 0 0

variable (m : (ℓ : Loc nD τ sig) → Buf (Elt Ideal) ℓ) (ρ : Dev nD → PrngReg)

/-- The first region writes none of these argument arrays: the host stretch finds them as launched. -/
theorem kept_edges (c : Dev nD) : W1 m ρ c (Proc.devRef .tc main_arg1) = m ((c : Thread nD τ).loc main_arg1) :=
  (W1_of_ne m ρ c main_arg1 (by decide)).trans rfl
theorem kept_bias1 (c : Dev nD) : W1 m ρ c (Proc.devRef .tc main_arg3) = m ((c : Thread nD τ).loc main_arg3) :=
  (W1_of_ne m ρ c main_arg3 (by decide)).trans rfl
theorem kept_weights2 (c : Dev nD) : W1 m ρ c (Proc.devRef .tc main_arg4) = m ((c : Thread nD τ).loc main_arg4) :=
  (W1_of_ne m ρ c main_arg4 (by decide)).trans rfl
theorem kept_bias2 (c : Dev nD) : W1 m ρ c (Proc.devRef .tc main_arg5) = m ((c : Thread nD τ).loc main_arg5) :=
  (W1_of_ne m ρ c main_arg5 (by decide)).trans rfl

/-- The first region's output, as the host stretch finds it, is lin of the launch x and W1. -/
theorem layer1 (c : Dev nD) : W1 m ρ c (Proc.devRef .tc main_v0) = Linear1.lin (m ((c : Thread nD τ).loc main_arg0)) (m ((c : Thread nD τ).loc main_arg2)) :=
  (Named.W1_linear m ρ c).trans (Linear1.final (V0 m ρ) c)

/-- The second region is entered with the summed features of lin x W1 over the edge list, -/
theorem entry_summed (c : Dev nD) :
    V2 m ρ c main_v14 = Aggregate.summed (F := Ideal) (Linear1.lin (m ((c : Thread nD τ).loc main_arg0)) (m ((c : Thread nD τ).loc main_arg2))) (m ((c : Thread nD τ).loc main_arg1)) := by
  refine (Aggregate.after_summed (W1 m ρ c)).trans ?_
  rw [layer1 m ρ c, kept_edges m ρ c]

/-- the in-degrees as a column, -/
theorem entry_count (c : Dev nD) :
    V2 m ρ c main_v19 = broadcastInDim S100000x1 ![0] bcast_S100000_S100000x1_0 (Aggregate.count (F := Ideal) (m ((c : Thread nD τ).loc main_arg1))) := by
  refine (Aggregate.after_count (W1 m ρ c)).trans ?_
  rw [kept_edges m ρ c]

/-- the first bias as a row, -/
theorem entry_bias1 (c : Dev nD) : V2 m ρ c main_v20 = shapeCast _ (m ((c : Thread nD τ).loc main_arg3)) shapeCasts_S16_S1x16 := by
  refine (Aggregate.after_bias1 (W1 m ρ c)).trans ?_
  rw [kept_bias1 m ρ c]

/-- the second bias as [1,1], -/
theorem entry_bias2 (c : Dev nD) : V2 m ρ c main_v21 = shapeCast _ (m ((c : Thread nD τ).loc main_arg5)) shapeCasts_S1_S1x1 := by
  refine (Aggregate.after_bias2 (W1 m ρ c)).trans ?_
  rw [kept_bias2 m ρ c]

/-- and the second layer's weights as launched. -/
theorem entry_weights2 (c : Dev nD) : V2 m ρ c main_arg4 = (m ((c : Thread nD τ).loc main_arg4)) :=
  (Aggregate.after_weights2 (W1 m ρ c)).trans (kept_weights2 m ρ c)

/-- The result buffer at the end of the run is value of the launch arguments. -/
theorem result_eq (c : Dev nD) :
    W3 m ρ c (Proc.devRef .tc main_v22) = value (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (Named.W3_result m ρ c).trans ((Stage2.final (V2 m ρ) c).trans ?_)
  rw [entry_summed m ρ c, entry_count m ρ c, entry_bias1 m ρ c, entry_bias2 m ρ c, entry_weights2 m ρ c]
  exact head_eq _ _ _ _ _

/-- Every weakly fair execution of the idealized kernel terminates without a fault, its result at value of the launch
    arguments and every argument unchanged. -/
theorem run : θ_run defs (onTc (τ := τ) (main (F := Ideal))) ⟨m, fun _ => 0, ρ⟩ (fun r => ∀ c : Dev nD,
      r.2.mem ((c.tc : Thread nD τ).loc main_v22) = value (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (Named.run m ρ)

end Cert.KernelIdeal.Bridge

end
-- ==== Proof.RefRead.lean ====
/-
  The reference program read as the same functions the kernel computes.

  Its first operation pair (transpose W1, dot_general) is lin x W1: entry (n, j) is Σ_k x[n,k] · W1ᵀ[k,j].
  Its gather and scatter-adds are, term for term, the ones the kernel's host stretch applies, so its summed features
  and in-degrees are summed (lin x W1) e and count e.
  Its tail — divide by max(count, 1) broadcast over the features, add b1, relu, dot_general with W2ᵀ, add b2 — read at
  entry (n, 0) is Σ_j max(s[n,j] / max(cnt[n], 1) + b1[j], 0) · W2[0,j] + b2[0]: the function out1.
-/
import proofs.«161646_j14491219656875_2_alg».proof.Proof.Gen.ReferenceIdeal.Read
import proofs.«161646_j14491219656875_2_alg».proof.Proof.Linear1Array
import proofs.«161646_j14491219656875_2_alg».proof.Proof.Aggregate
import proofs.«161646_j14491219656875_2_alg».proof.Proof.OutSpec

noncomputable section

namespace Cert.ReferenceIdeal.RefValue

open Cert.ReferenceIdeal Cert.ReferenceIdeal.Gen Cert.ReferenceIdeal.Read Idealize.ShloMosaic Idealize.ShloMosaic.ValueIdx

/-- The reference's first layer is lin. -/
theorem layer1_eq (x0 : (⟨S100000x58, .f32⟩ : BufTy).Contents (Elt Ideal)) (x2 : (⟨S16x58, .f32⟩ : BufTy).Contents (Elt Ideal)) :
    val_main_v1 (F := Ideal) x0 x2 = Cert.KernelIdeal.Linear1.lin x0 x2 := by
  funext i
  obtain ⟨n, j, rfl⟩ : ∃ (n : Fin 100000) (j : Fin 16), i = ix2 n j := ⟨i 0, i 1, eq_ix2 i⟩
  rw [val_main_v1_apply]
  unfold Cert.KernelIdeal.Linear1.lin
  refine Finset.sum_congr rfl fun k _ => ?_
  rw [val_main_v0_apply]
  refine congrArg₂ (· * ·) (congrArg x0 ?_) (congrArg x2 ?_)
  · funext a; apply Fin.ext
    match a with
    | ⟨0, _⟩ => rfl
    | ⟨1, _⟩ => rfl
  · funext a; apply Fin.ext
    match a with
    | ⟨0, _⟩ => rfl
    | ⟨1, _⟩ => rfl

/-- The reference's summed features are the kernel-side summed of its own first layer: the same scatter-add of the
    same gather over the same index columns. -/
theorem summed_eq (x0 : (⟨S100000x58, .f32⟩ : BufTy).Contents (Elt Ideal)) (x1 : (⟨S2x3200000, .i32⟩ : BufTy).Contents (Elt Ideal))
    (x2 : (⟨S16x58, .f32⟩ : BufTy).Contents (Elt Ideal)) :
    val_main_v15 (F := Ideal) x0 x1 x2 = Cert.KernelIdeal.Aggregate.summed (F := Ideal) (val_main_v1 (F := Ideal) x0 x2) x1 := rfl

/-- The reference's in-degrees are the kernel-side count. -/
theorem count_eq (x1 : (⟨S2x3200000, .i32⟩ : BufTy).Contents (Elt Ideal)) :
    val_main_v19 (F := Ideal) x1 = Cert.KernelIdeal.Aggregate.count (F := Ideal) x1 := rfl

/-- The reference's result is out1 of its summed features and in-degrees. -/
theorem tail_eq (x0 : (⟨S100000x58, .f32⟩ : BufTy).Contents (Elt Ideal)) (x1 : (⟨S2x3200000, .i32⟩ : BufTy).Contents (Elt Ideal))
    (x2 : (⟨S16x58, .f32⟩ : BufTy).Contents (Elt Ideal)) (x3 : (⟨S16, .f32⟩ : BufTy).Contents (Elt Ideal))
    (x4 : (⟨S1x16, .f32⟩ : BufTy).Contents (Elt Ideal)) (x5 : (⟨S1, .f32⟩ : BufTy).Contents (Elt Ideal)) :
    val_main_v33 (F := Ideal) x0 x1 x2 x3 x4 x5
      = Cert.KernelIdeal.Stage2.out1 (val_main_v15 (F := Ideal) x0 x1 x2) (val_main_v19 (F := Ideal) x1) x3 x4 x5 := by
  funext i
  obtain ⟨n, z, rfl⟩ : ∃ (n : Fin 100000) (z : Fin 1), i = ix2 n z := ⟨i 0, i 1, eq_ix2 i⟩
  have hz : z = 0 := Subsingleton.elim _ _
  subst hz
  rw [val_main_v33_apply, val_main_v30_apply, val_main_v32_apply, val_main_v31_apply]
  unfold Cert.KernelIdeal.Stage2.out1
  refine congrArg₂ (· + ·) (Finset.sum_congr rfl fun k _ => ?_) (congrArg x5 ?_)
  · rw [val_main_v28_apply, val_main_v27_apply, val_main_v24_apply, val_main_v23_apply, val_main_v22_apply, val_main_v21_apply,
      val_main_v20_apply, val_main_cst_3_apply, val_main_v26_apply, val_main_v25_apply, val_main_call0_v0_apply,
      val_main_call0_cst_apply, val_main_v29_apply]
    have e1 : lidx_main_v30 (ix2 n (0 : Fin 1)) k = ix2 n k := funext fun a => Fin.ext (by
      match a with
      | ⟨0, _⟩ => rfl
      | ⟨1, _⟩ => rfl)
    have e2 : idx_main_v22 (idx_main_v23 (ix2 n k)) = ix1 n := funext fun a => Fin.ext (by
      match a with
      | ⟨0, _⟩ => rfl)
    have e3 : idx_main_v25 (idx_main_v26 (ix2 n k)) = ix1 k := funext fun a => Fin.ext (by
      match a with
      | ⟨0, _⟩ => rfl)
    have e4 : idx_main_v29 (ridx_main_v30 (ix2 n (0 : Fin 1)) k) = ix2 (0 : Fin 1) k := funext fun a => Fin.ext (by
      match a with
      | ⟨0, _⟩ => rfl
      | ⟨1, _⟩ => rfl)
    rw [e1, e2, e3, e4]
    rfl
  · funext a; apply Fin.ext
    match a with
    | ⟨0, _⟩ => rfl

end Cert.ReferenceIdeal.RefValue

end
-- ==== Proof.lean ====
/-
  The certificate: a two-layer message-passing network on a graph of 100000 nodes and 3200000 edges, computed by two
  pallas regions around a gather and two scatter-adds on the host, against its jnp reference.

  Both programs compute, over the extended reals,
      out[n] = Σ_j max( (Σ_{edges u→n} h[u,j]) / max(deg(n), 1) + b1[j], 0 ) · W2[0,j] + b2[0],   h = x · W1ᵀ.
  The kernel's first region forms h row block by row block with a matrix product into a zero accumulator (its bf16
  narrowing is the identity on extended reals); the reference forms it with one dot_general; entry by entry both are
  Σ_k x[n,k] · W1[j,k]. The gather and the scatter-adds are the same terms in both programs and are never opened. The
  kernel's second region sums 16 lanes from a zero accumulator where the reference contracts with W2ᵀ: the same sum of
  the same products in the same order. No distributive or cancelling law is used, so finiteness of the inputs is not
  used either; the precondition is carried only because the claims are stated under it.
  The idealization rewrote nothing, so that claim is trivially true. The three frame claims are the generated frames
  (the reference's being its generated run with the result dropped).
-/
import proofs.«161646_j14491219656875_2_alg».proof.Defs
import proofs.«161646_j14491219656875_2_alg».proof.Proof.Gen.Kernel
import proofs.«161646_j14491219656875_2_alg».proof.Proof.Gen.Kernel.Skeleton
import proofs.«161646_j14491219656875_2_alg».proof.Proof.Gen.Kernel.Launch
import proofs.«161646_j14491219656875_2_alg».proof.Proof.Gen.Kernel.Points
import proofs.«161646_j14491219656875_2_alg».proof.Proof.Gen.Kernel.Frame
import proofs.«161646_j14491219656875_2_alg».proof.Proof.Gen.KernelIdeal
import proofs.«161646_j14491219656875_2_alg».proof.Proof.Gen.KernelIdeal.Skeleton
import proofs.«161646_j14491219656875_2_alg».proof.Proof.Gen.KernelIdeal.Launch
import proofs.«161646_j14491219656875_2_alg».proof.Proof.Gen.KernelIdeal.Points
import proofs.«161646_j14491219656875_2_alg».proof.Proof.Gen.KernelIdeal.Frame
import proofs.«161646_j14491219656875_2_alg».proof.Proof.Gen.ReferenceIdeal
import proofs.«161646_j14491219656875_2_alg».proof.Proof.Gen.Pre_finite_inputs
import proofs.«161646_j14491219656875_2_alg».proof.Proof.Gen.ReferenceIdeal.Run
import proofs.«161646_j14491219656875_2_alg».proof.Proof.Gen.ReferenceIdeal.Read
import proofs.«161646_j14491219656875_2_alg».proof.Proof.Bridge
import proofs.«161646_j14491219656875_2_alg».proof.Proof.RefRead
import Idealize.ShloMosaic.Adequacy
import Idealize.ShloMosaic.Init

noncomputable section

namespace Cert.Proof

open Idealize.ShloMosaic Idealize.SL.Sem

/-- The reference run's result term is the kernel's value of the same arguments: its tail is out1 of its summed
    features and in-degrees, which are summed and count of its first layer, which is lin. -/
theorem reference_value (x0 : (⟨Cert.ReferenceIdeal.S100000x58, .f32⟩ : BufTy).Contents (Elt Ideal))
    (x1 : (⟨Cert.ReferenceIdeal.S2x3200000, .i32⟩ : BufTy).Contents (Elt Ideal))
    (x2 : (⟨Cert.ReferenceIdeal.S16x58, .f32⟩ : BufTy).Contents (Elt Ideal))
    (x3 : (⟨Cert.ReferenceIdeal.S16, .f32⟩ : BufTy).Contents (Elt Ideal))
    (x4 : (⟨Cert.ReferenceIdeal.S1x16, .f32⟩ : BufTy).Contents (Elt Ideal))
    (x5 : (⟨Cert.ReferenceIdeal.S1, .f32⟩ : BufTy).Contents (Elt Ideal)) :
    Cert.ReferenceIdeal.Read.val_main_v33 (F := Ideal) x0 x1 x2 x3 x4 x5 = Cert.KernelIdeal.Bridge.value x0 x1 x2 x3 x4 x5 := by
  rw [Cert.ReferenceIdeal.RefValue.tail_eq, Cert.ReferenceIdeal.RefValue.summed_eq, Cert.ReferenceIdeal.RefValue.count_eq,
    Cert.ReferenceIdeal.RefValue.layer1_eq]
  rfl

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end at value of those arguments. -/
theorem algebraic : Cert.algebraic_KernelIdeal_ReferenceIdeal := by
  intro m ρ m' ρ' _ hagree
  refine ⟨_, Cert.KernelIdeal.Bridge.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact (Cert.ReferenceIdeal.Read.val_main_v33_eq _ _ _ _ _ _).trans (reference_value _ _ _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
